-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x5120 : Shape := ⟨2, ![256, 5120]⟩
abbrev S5120x160 : Shape := ⟨2, ![5120, 160]⟩
abbrev S160x5120 : Shape := ⟨2, ![160, 5120]⟩
abbrev S5120 : Shape := ⟨1, ![5120]⟩
abbrev S5120x16 : Shape := ⟨2, ![5120, 16]⟩
abbrev S256x5120x16 : Shape := ⟨3, ![256, 5120, 16]⟩
abbrev S_ : Shape := ⟨0, ![]⟩

class Facts : Prop where
  bcast_S_S256x5120 : S_.BroadcastsInDim S256x5120 (![] : Fin 0 → Fin S256x5120.rank)
  reducesTo_S256x5120_S_d0_1 : S256x5120.ReducesTo [0, 1] S_
  h_S_ : 0 < S_.numel
  bcast_S_S5120x160 : S_.BroadcastsInDim S5120x160 (![] : Fin 0 → Fin S5120x160.rank)
  reducesTo_S5120x160_S_d0_1 : S5120x160.ReducesTo [0, 1] S_
  bcast_S_S160x5120 : S_.BroadcastsInDim S160x5120 (![] : Fin 0 → Fin S160x5120.rank)
  reducesTo_S160x5120_S_d0_1 : S160x5120.ReducesTo [0, 1] S_
  bcast_S_S5120 : S_.BroadcastsInDim S5120 (![] : Fin 0 → Fin S5120.rank)
  reducesTo_S5120_S_d0 : S5120.ReducesTo [0] S_
  bcast_S_S5120x16 : S_.BroadcastsInDim S5120x16 (![] : Fin 0 → Fin S5120x16.rank)
  reducesTo_S5120x16_S_d0_1 : S5120x16.ReducesTo [0, 1] S_
  bcast_S_S256x5120x16 : S_.BroadcastsInDim S256x5120x16 (![] : Fin 0 → Fin S256x5120x16.rank)
  reducesTo_S256x5120x16_S_d0_1_2 : S256x5120x16.ReducesTo [0, 1, 2] S_

variable [Facts]

def fn_part1 {F : FTy → Type} [FloatOps F] (main_arg4 : FVec F S5120x16 .f32) (main_arg5 : FVec F S256x5120x16 .f32) (main_arg6 : FVec F S256x5120x16 .f32) (main_v13 : IVec S_ 1) (main_v16 : IVec S5120 1) : IVec S_ 1 :=
  let main_c_5 : IVec S_ 1 := constantI S_ 1 1#1
  let main_v17 : IVec S_ 1 := (fun x v => Host.reduce IntOp.andi x v reducesTo_S5120_S_d0 h_S_) main_v16 main_c_5
  let main_v18 : IVec S_ 1 := andi main_v13 main_v17
  let main_v19 : FVec F S5120x16 .f32 := Host.absf main_arg4
  let main_cst_6 : FVec F S_ .f32 := constant S_ .f32 0x7F800000#32
  let main_v20 : FVec F S5120x16 .f32 := broadcastInDim S5120x16 ![] bcast_S_S5120x16 main_cst_6
  let main_v21 : IVec S5120x16 1 := cmpf .olt main_v19 main_v20
  let main_c_7 : IVec S_ 1 := constantI S_ 1 1#1
  let main_v22 : IVec S_ 1 := (fun x v => Host.reduce IntOp.andi x v reducesTo_S5120x16_S_d0_1 h_S_) main_v21 main_c_7
  let main_v23 : IVec S_ 1 := andi main_v18 main_v22
  let main_v24 : FVec F S256x5120x16 .f32 := Host.absf main_arg5
  let main_cst_8 : FVec F S_ .f32 := constant S_ .f32 0x7F800000#32
  let main_v25 : FVec F S256x5120x16 .f32 := broadcastInDim S256x5120x16 ![] bcast_S_S256x5120x16 main_cst_8
  let main_v26 : IVec S256x5120x16 1 := cmpf .olt main_v24 main_v25
  let main_c_9 : IVec S_ 1 := constantI S_ 1 1#1
  let main_v27 : IVec S_ 1 := (fun x v => Host.reduce IntOp.andi x v reducesTo_S256x5120x16_S_d0_1_2 h_S_) main_v26 main_c_9
  let main_v28 : IVec S_ 1 := andi main_v23 main_v27
  let main_v29 : FVec F S256x5120x16 .f32 := Host.absf main_arg6
  let main_cst_10 : FVec F S_ .f32 := constant S_ .f32 0x7F800000#32
  let main_v30 : FVec F S256x5120x16 .f32 := broadcastInDim S256x5120x16 ![] bcast_S_S256x5120x16 main_cst_10
  let main_v31 : IVec S256x5120x16 1 := cmpf .olt main_v29 main_v30
  let main_c_11 : IVec S_ 1 := constantI S_ 1 1#1
  let main_v32 : IVec S_ 1 := (fun x v => Host.reduce IntOp.andi x v reducesTo_S256x5120x16_S_d0_1_2 h_S_) main_v31 main_c_11
  let main_v33 : IVec S_ 1 := andi main_v28 main_v32
  main_v33

def fn {F : FTy → Type} [FloatOps F] (main_arg0 : FVec F S256x5120 .f32) (main_arg1 : FVec F S5120x160 .f32) (main_arg2 : FVec F S160x5120 .f32) (main_arg3 : FVec F S5120 .f32) (main_arg4 : FVec F S5120x16 .f32) (main_arg5 : FVec F S256x5120x16 .f32) (main_arg6 : FVec F S256x5120x16 .f32) : IVec S_ 1 :=
  let main_v0 : FVec F S256x5120 .f32 := Host.absf main_arg0
  let main_cst : FVec F S_ .f32 := constant S_ .f32 0x7F800000#32
  let main_v1 : FVec F S256x5120 .f32 := broadcastInDim S256x5120 ![] bcast_S_S256x5120 main_cst
  let main_v2 : IVec S256x5120 1 := cmpf .olt main_v0 main_v1
  let main_c : IVec S_ 1 := constantI S_ 1 1#1
  let main_v3 : IVec S_ 1 := (fun x v => Host.reduce IntOp.andi x v reducesTo_S256x5120_S_d0_1 h_S_) main_v2 main_c
  let main_v4 : FVec F S5120x160 .f32 := Host.absf main_arg1
  let main_cst_0 : FVec F S_ .f32 := constant S_ .f32 0x7F800000#32
  let main_v5 : FVec F S5120x160 .f32 := broadcastInDim S5120x160 ![] bcast_S_S5120x160 main_cst_0
  let main_v6 : IVec S5120x160 1 := cmpf .olt main_v4 main_v5
  let main_c_1 : IVec S_ 1 := constantI S_ 1 1#1
  let main_v7 : IVec S_ 1 := (fun x v => Host.reduce IntOp.andi x v reducesTo_S5120x160_S_d0_1 h_S_) main_v6 main_c_1
  let main_v8 : IVec S_ 1 := andi main_v3 main_v7
  let main_v9 : FVec F S160x5120 .f32 := Host.absf main_arg2
  let main_cst_2 : FVec F S_ .f32 := constant S_ .f32 0x7F800000#32
  let main_v10 : FVec F S160x5120 .f32 := broadcastInDim S160x5120 ![] bcast_S_S160x5120 main_cst_2
  let main_v11 : IVec S160x5120 1 := cmpf .olt main_v9 main_v10
  let main_c_3 : IVec S_ 1 := constantI S_ 1 1#1
  let main_v12 : IVec S_ 1 := (fun x v => Host.reduce IntOp.andi x v reducesTo_S160x5120_S_d0_1 h_S_) main_v11 main_c_3
  let main_v13 : IVec S_ 1 := andi main_v8 main_v12
  let main_v14 : FVec F S5120 .f32 := Host.absf main_arg3
  let main_cst_4 : FVec F S_ .f32 := constant S_ .f32 0x7F800000#32
  let main_v15 : FVec F S5120 .f32 := broadcastInDim S5120 ![] bcast_S_S5120 main_cst_4
  let main_v16 : IVec S5120 1 := cmpf .olt main_v14 main_v15
  fn_part1 (F := F) main_arg4 main_arg5 main_arg6 main_v13 main_v16
-- ==== Kernel.lean ====
abbrev S256x5120 : Shape := ⟨2, ![256, 5120]⟩
abbrev S5120x160 : Shape := ⟨2, ![5120, 160]⟩
abbrev S160x5120 : Shape := ⟨2, ![160, 5120]⟩
abbrev S5120 : Shape := ⟨1, ![5120]⟩
abbrev S5120x16 : Shape := ⟨2, ![5120, 16]⟩
abbrev S256x5120x16 : Shape := ⟨3, ![256, 5120, 16]⟩
abbrev S1x5120 : Shape := ⟨2, ![1, 5120]⟩
abbrev S256x16 : Shape := ⟨2, ![256, 16]⟩
abbrev S256x160 : Shape := ⟨2, ![256, 160]⟩
abbrev S32x128x16 : Shape := ⟨3, ![32, 128, 16]⟩
abbrev S32x128 : Shape := ⟨2, ![32, 128]⟩
abbrev S32x16 : Shape := ⟨2, ![32, 16]⟩
abbrev S32x128x1 : Shape := ⟨3, ![32, 128, 1]⟩
abbrev S32x1x16 : Shape := ⟨3, ![32, 1, 16]⟩

abbrev nBuf : Space → Nat
  | .hbm => 11
  | .vmem => 19
  | .smem => 0
  | _ => 0

abbrev bufTy : (tb : Table) → Fin (tcTables nBuf tb) → BufTy
  | .hbm, ⟨0, _⟩ => ⟨S256x5120, .f32⟩
  | .hbm, ⟨1, _⟩ => ⟨S5120x160, .f32⟩
  | .hbm, ⟨2, _⟩ => ⟨S160x5120, .f32⟩
  | .hbm, ⟨3, _⟩ => ⟨S5120, .f32⟩
  | .hbm, ⟨4, _⟩ => ⟨S5120x16, .f32⟩
  | .hbm, ⟨5, _⟩ => ⟨S256x5120x16, .f32⟩
  | .hbm, ⟨6, _⟩ => ⟨S256x5120x16, .f32⟩
  | .hbm, ⟨7, _⟩ => ⟨S1x5120, .f32⟩
  | .hbm, ⟨8, _⟩ => ⟨S256x5120, .f32⟩
  | .hbm, ⟨9, _⟩ => ⟨S256x16, .f32⟩
  | .hbm, ⟨10, _⟩ => ⟨S256x5120x16, .f32⟩
  | .local _ .vmem, ⟨0, _⟩ => ⟨S256x5120, .f32⟩
  | .local _ .vmem, ⟨1, _⟩ => ⟨S5120x160, .f32⟩
  | .local _ .vmem, ⟨2, _⟩ => ⟨S160x5120, .f32⟩
  | .local _ .vmem, ⟨3, _⟩ => ⟨S1x5120, .f32⟩
  | .local _ .vmem, ⟨4, _⟩ => ⟨S5120x16, .f32⟩
  | .local _ .vmem, ⟨5, _⟩ => ⟨S256x5120, .f32⟩
  | .local _ .vmem, ⟨6, _⟩ => ⟨S256x16, .f32⟩
  | .local _ .vmem, ⟨7, _⟩ => ⟨S32x128x16, .f32⟩
  | .local _ .vmem, ⟨8, _⟩ => ⟨S32x128x16, .f32⟩
  | .local _ .vmem, ⟨9, _⟩ => ⟨S32x128x16, .f32⟩
  | .local _ .vmem, ⟨10, _⟩ => ⟨S32x128x16, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x16, .f32⟩
  | .local _ .vmem, ⟨16, _⟩ => ⟨S32x16, .f32⟩
  | .local _ .vmem, ⟨17, _⟩ => ⟨S32x128x16, .f32⟩
  | .local _ .vmem, ⟨18, _⟩ => ⟨S32x128x16, .f32⟩
  | _, _ => ⟨S256x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![8, 40], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S32x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S32x128x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S5120_S1x5120 : S5120.ShapeCasts S1x5120
  inb_S256x5120_S256x5120_0_0 : ∀ a, (![0, 0] : Fin 2 → Nat) a + S256x5120.size a ≤ S256x5120.size a
  h_S256x5120 : 0 < S256x5120.numel
  bitsLt_bf16_f32 : FTy.bits .bf16 < FTy.bits .f32
  inb_S5120x160_S5120x160_0_0 : ∀ a, (![0, 0] : Fin 2 → Nat) a + S5120x160.size a ≤ S5120x160.size a
  h_S5120x160 : 0 < S5120x160.numel
  inb_S160x5120_S160x5120_0_0 : ∀ a, (![0, 0] : Fin 2 → Nat) a + S160x5120.size a ≤ S160x5120.size a
  h_S160x5120 : 0 < S160x5120.numel
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S256x5120 : S1x5120.Broadcasts S256x5120
  inb_S5120x16_S5120x16_0_0 : ∀ a, (![0, 0] : Fin 2 → Nat) a + S5120x16.size a ≤ S5120x16.size a
  h_S5120x16 : 0 < S5120x16.numel
  inb_S256x16_S256x16_0_0 : ∀ a, (![0, 0] : Fin 2 → Nat) a + S256x16.size a ≤ S256x16.size a
  h_S256x16 : 0 < S256x16.numel
  inb_S32x128x16_S32x128x16_0_0_0 : ∀ a, (![0, 0, 0] : Fin 3 → Nat) a + S32x128x16.size a ≤ S32x128x16.size a
  h_S32x128x16 : 0 < S32x128x16.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x128_S32x128x1 : S32x128.ShapeCasts S32x128x1
  shapeCasts_S32x16_S32x1x16 : S32x16.ShapeCasts S32x1x16
  broadcasts_S32x128x1_S32x128x16 : S32x128x1.Broadcasts S32x128x16
  broadcasts_S32x1x16_S32x128x16 : S32x1x16.Broadcasts S32x128x16
  dot_S256x5120_S5120x160_S256x160_1_0_0_1_n_n_wf : DotDims.WF S256x5120 S5120x160 S256x160 [1] [0] [0] [1] [] []
  dot_S256x160_S160x5120_S256x5120_1_0_0_1_n_n_wf : DotDims.WF S256x160 S160x5120 S256x5120 [1] [0] [0] [1] [] []
  dot_S256x5120_S5120x16_S256x16_1_0_0_1_n_n_wf : DotDims.WF S256x5120 S5120x16 S256x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x5120.size a ≤ S256x5120.size a
  hwx0_0 : ∀ i : grid0.Coords, EltTy.bits .f32 = 32 ∨ (Rect.block (s := S256x5120) S256x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5120x160.size a ≤ S5120x160.size a
  hwx0_1 : ∀ i : grid0.Coords, EltTy.bits .f32 = 32 ∨ (Rect.block (s := S5120x160) S5120x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x5120.size a ≤ S160x5120.size a
  hwx0_2 : ∀ i : grid0.Coords, EltTy.bits .f32 = 32 ∨ (Rect.block (s := S160x5120) S160x5120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5120.size a ≤ S1x5120.size a
  hwx0_3 : ∀ i : grid0.Coords, EltTy.bits .f32 = 32 ∨ (Rect.block (s := S1x5120) S1x5120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5120x16.size a ≤ S5120x16.size a
  hwx0_4 : ∀ i : grid0.Coords, EltTy.bits .f32 = 32 ∨ (Rect.block (s := S5120x16) S5120x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x5120.size a ≤ S256x5120.size a
  hwx0_5 : ∀ i : grid0.Coords, EltTy.bits .f32 = 32 ∨ (Rect.block (s := S256x5120) S256x5120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S256x16.size a
  hwx0_6 : ∀ i : grid0.Coords, EltTy.bits .f32 = 32 ∨ (Rect.block (s := S256x16) S256x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x16.size a ≤ S256x5120x16.size a
  hwx1_0 : ∀ i : grid1.Coords, EltTy.bits .f32 = 32 ∨ (Rect.block (s := S256x5120x16) S32x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x16.size a ≤ S256x5120x16.size a
  hwx1_1 : ∀ i : grid1.Coords, EltTy.bits .f32 = 32 ∨ (Rect.block (s := S256x5120x16) S32x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S256x5120.size a
  hwx1_2 : ∀ i : grid1.Coords, EltTy.bits .f32 = 32 ∨ (Rect.block (s := S256x5120) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S256x5120.size a
  hwx1_3 : ∀ i : grid1.Coords, EltTy.bits .f32 = 32 ∨ (Rect.block (s := S256x5120) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S256x16.size a
  hwx1_4 : ∀ i : grid1.Coords, EltTy.bits .f32 = 32 ∨ (Rect.block (s := S256x16) S32x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x128x16.size a ≤ S256x5120x16.size a
  hwx1_5 : ∀ i : grid1.Coords, EltTy.bits .f32 = 32 ∨ (Rect.block (s := S256x5120x16) S32x128x16.size (cc1_transform_5 i) (hinb1_5 i)).WholeWords (EltTy.packing .f32)

variable [Facts₀]

def dot_S256x5120_S5120x160_S256x160_1_0_0_1_n_n : DotDims S256x5120 S5120x160 S256x160 where
  lhsContracting := [1]
  rhsContracting := [0]
  lhsNonContracting := [0]
  rhsNonContracting := [1]
  lhsBatch := []
  rhsBatch := []
  wf := dot_S256x5120_S5120x160_S256x160_1_0_0_1_n_n_wf
def dot_S256x160_S160x5120_S256x5120_1_0_0_1_n_n : DotDims S256x160 S160x5120 S256x5120 where
  lhsContracting := [1]
  rhsContracting := [0]
  lhsNonContracting := [0]
  rhsNonContracting := [1]
  lhsBatch := []
  rhsBatch := []
  wf := dot_S256x160_S160x5120_S256x5120_1_0_0_1_n_n_wf
def dot_S256x5120_S5120x16_S256x16_1_0_0_1_n_n : DotDims S256x5120 S5120x16 S256x16 where
  lhsContracting := [1]
  rhsContracting := [0]
  lhsNonContracting := [0]
  rhsNonContracting := [1]
  lhsBatch := []
  rhsBatch := []
  wf := dot_S256x5120_S5120x16_S256x16_1_0_0_1_n_n_wf

abbrev win0_0 : Pipeline.Window sig grid0 :=
  Pipeline.Window.ofSpec (Memref.whole main_arg0) S256x5120.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5120x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S160x5120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5120x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S256x5120.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S256x16.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg5) S32x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x128x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S32x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S32x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S32x128x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x5120 : Shape := ⟨2, ![256, 5120]⟩
abbrev S5120x160 : Shape := ⟨2, ![5120, 160]⟩
abbrev S160x5120 : Shape := ⟨2, ![160, 5120]⟩
abbrev S5120 : Shape := ⟨1, ![5120]⟩
abbrev S5120x16 : Shape := ⟨2, ![5120, 16]⟩
abbrev S256x5120x16 : Shape := ⟨3, ![256, 5120, 16]⟩
abbrev S256x160 : Shape := ⟨2, ![256, 160]⟩
abbrev S1x5120 : Shape := ⟨2, ![1, 5120]⟩
abbrev S_ : Shape := ⟨0, ![]⟩
abbrev S256x16 : Shape := ⟨2, ![256, 16]⟩
abbrev S256x5120x1 : Shape := ⟨3, ![256, 5120, 1]⟩
abbrev S256x1x16 : Shape := ⟨3, ![256, 1, 16]⟩

abbrev nBuf : Space → Nat
  | .hbm => 37
  | .vmem => 0
  | .smem => 0
  | _ => 0

abbrev bufTy : (tb : Table) → Fin (tcTables nBuf tb) → BufTy
  | .hbm, ⟨0, _⟩ => ⟨S256x5120, .f32⟩
  | .hbm, ⟨1, _⟩ => ⟨S5120x160, .f32⟩
  | .hbm, ⟨2, _⟩ => ⟨S160x5120, .f32⟩
  | .hbm, ⟨3, _⟩ => ⟨S5120, .f32⟩
  | .hbm, ⟨4, _⟩ => ⟨S5120x16, .f32⟩
  | .hbm, ⟨5, _⟩ => ⟨S256x5120x16, .f32⟩
  | .hbm, ⟨6, _⟩ => ⟨S256x5120x16, .f32⟩
  | .hbm, ⟨7, _⟩ => ⟨S256x160, .f32⟩
  | .hbm, ⟨8, _⟩ => ⟨S256x5120, .f32⟩
  | .hbm, ⟨9, _⟩ => ⟨S1x5120, .f32⟩
  | .hbm, ⟨10, _⟩ => ⟨S256x5120, .f32⟩
  | .hbm, ⟨11, _⟩ => ⟨S256x5120, .f32⟩
  | .hbm, ⟨12, _⟩ => ⟨S_, .f32⟩
  | .hbm, ⟨13, _⟩ => ⟨S256x5120, .f32⟩
  | .hbm, ⟨14, _⟩ => ⟨S256x5120, .f32⟩
  | .hbm, ⟨15, _⟩ => ⟨S256x5120, .f32⟩
  | .hbm, ⟨16, _⟩ => ⟨S256x5120, .f32⟩
  | .hbm, ⟨17, _⟩ => ⟨S256x5120, .i1⟩
  | .hbm, ⟨18, _⟩ => ⟨S256x5120, .f32⟩
  | .hbm, ⟨19, _⟩ => ⟨S256x5120, .f32⟩
  | .hbm, ⟨20, _⟩ => ⟨S256x5120, .f32⟩
  | .hbm, ⟨21, _⟩ => ⟨S256x5120, .f32⟩
  | .hbm, ⟨22, _⟩ => ⟨S256x5120, .f32⟩
  | .hbm, ⟨23, _⟩ => ⟨S256x5120, .f32⟩
  | .hbm, ⟨24, _⟩ => ⟨S256x5120, .f32⟩
  | .hbm, ⟨25, _⟩ => ⟨S256x5120, .f32⟩
  | .hbm, ⟨26, _⟩ => ⟨S256x16, .f32⟩
  | .hbm, ⟨27, _⟩ => ⟨S256x5120x1, .f32⟩
  | .hbm, ⟨28, _⟩ => ⟨S256x1x16, .f32⟩
  | .hbm, ⟨29, _⟩ => ⟨S256x5120x16, .f32⟩
  | .hbm, ⟨30, _⟩ => ⟨S256x5120x16, .f32⟩
  | .hbm, ⟨31, _⟩ => ⟨S256x5120x16, .f32⟩
  | .hbm, ⟨32, _⟩ => ⟨S256x5120x16, .f32⟩
  | .hbm, ⟨33, _⟩ => ⟨S256x5120x1, .f32⟩
  | .hbm, ⟨34, _⟩ => ⟨S256x5120x16, .f32⟩
  | .hbm, ⟨35, _⟩ => ⟨S256x5120x16, .f32⟩
  | .hbm, ⟨36, _⟩ => ⟨S256x5120x16, .f32⟩
  | _, _ => ⟨S256x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]

class Facts₀ : Prop where
  bcast_S5120_S1x5120_1 : S5120.BroadcastsInDim S1x5120 (![1] : Fin 1 → Fin S1x5120.rank)
  bcast_S1x5120_S256x5120_0_1 : S1x5120.BroadcastsInDim S256x5120 (![0, 1] : Fin 2 → Fin S256x5120.rank)
  bcast_S_S256x5120 : S_.BroadcastsInDim S256x5120 (![] : Fin 0 → Fin S256x5120.rank)
  bcast_S256x5120_S256x5120x1_0_1 : S256x5120.BroadcastsInDim S256x5120x1 (![0, 1] : Fin 2 → Fin S256x5120x1.rank)
  bcast_S256x16_S256x1x16_0_2 : S256x16.BroadcastsInDim S256x1x16 (![0, 2] : Fin 2 → Fin S256x1x16.rank)
  bcast_S256x5120x1_S256x5120x16_0_1_2 : S256x5120x1.BroadcastsInDim S256x5120x16 (![0, 1, 2] : Fin 3 → Fin S256x5120x16.rank)
  bcast_S256x1x16_S256x5120x16_0_1_2 : S256x1x16.BroadcastsInDim S256x5120x16 (![0, 1, 2] : Fin 3 → Fin S256x5120x16.rank)
  dot_S256x5120_S5120x160_S256x160_1_0_0_1_n_n_wf : DotDims.WF S256x5120 S5120x160 S256x160 [1] [0] [0] [1] [] []
  dot_S256x160_S160x5120_S256x5120_1_0_0_1_n_n_wf : DotDims.WF S256x160 S160x5120 S256x5120 [1] [0] [0] [1] [] []
  dot_S256x5120_S5120x16_S256x16_1_0_0_1_n_n_wf : DotDims.WF S256x5120 S5120x16 S256x16 [1] [0] [0] [1] [] []

variable [Facts₀]

def dot_S256x5120_S5120x160_S256x160_1_0_0_1_n_n : DotDims S256x5120 S5120x160 S256x160 where
  lhsContracting := [1]
  rhsContracting := [0]
  lhsNonContracting := [0]
  rhsNonContracting := [1]
  lhsBatch := []
  rhsBatch := []
  wf := dot_S256x5120_S5120x160_S256x160_1_0_0_1_n_n_wf
def dot_S256x160_S160x5120_S256x5120_1_0_0_1_n_n : DotDims S256x160 S160x5120 S256x5120 where
  lhsContracting := [1]
  rhsContracting := [0]
  lhsNonContracting := [0]
  rhsNonContracting := [1]
  lhsBatch := []
  rhsBatch := []
  wf := dot_S256x160_S160x5120_S256x5120_1_0_0_1_n_n_wf
def dot_S256x5120_S5120x16_S256x16_1_0_0_1_n_n : DotDims S256x5120 S5120x16 S256x16 where
  lhsContracting := [1]
  rhsContracting := [0]
  lhsNonContracting := [0]
  rhsNonContracting := [1]
  lhsBatch := []
  rhsBatch := []
  wf := dot_S256x5120_S5120x16_S256x16_1_0_0_1_n_n_wf

class Facts : Prop extends Facts₀ where

variable [Facts]
-- ==== Proof.Spec.lean ====
/-
  The single selective-scan step both programs compute, written once over the extended reals, index by index.

  For inputs x[256,5120], W1[5120,160], W2[160,5120], b[5120], Wb[5120,16], abar and h of shape [256,5120,16]:

    pre(u,d)   = (sum over k<160 of (sum over j<5120 of x(u,j)·W1(j,k)) · W2(k,d)) + b(d)
    dt(u,d)    = softplus(pre(u,d))                      softplus(z) = logaddexp(z, 0)
    B(u,n)     = sum over j<5120 of x(u,j)·Wb(j,n)
    h'(u,d,n)  = abar(u,d,n)·h(u,d,n) + (dt(u,d)·B(u,n))·x(u,d)

  The two programs differ only in how they spell softplus's guard and one negation; `softplus_sub_form` says those
  spellings are one function. Nothing here needs the inputs finite: the grouping and order of every sum and product are
  the same on both sides.
-/
import Idealize.ShloMosaic.PureOps.Ideal
import Idealize.ShloMosaic.PureOps.Ideal.Laws
import Idealize.ShloMosaic.Lib.ValueIdx

noncomputable section

open scoped BigOperators

namespace Cert.Scan

open Idealize.ShloMosaic Idealize.ShloMosaic.ValueIdx

/-- The f32 word of +0.0 read as an extended real. Both programs write this same word wherever softplus needs a zero. -/
abbrev z0 : EReal := Ideal.ofBits .f32 0x00000000#32

theorem z0_eq : z0 = 0 := Ideal.ofBits_zero_f32

/-- `logaddexp(z, 0)` as jax spells it: where `z - 0` differs from itself (never, on the extended reals) the sum
    `z + 0`, otherwise `max(z,0) + log1p(exp(-|z - 0|))`, with `|a| = max a (-a)`. -/
def softplus (z : EReal) : EReal :=
  Scalar.select (Ideal.cmp .une (z - z0) (z - z0)) (z + z0)
    (max z z0 + Ideal.log1p (Ideal.exp (-(max (z - z0) (-(z - z0))))))

/-- The same function with the guard spelt as the ordered "not equal" and the negation as `0 - a`:
    the two comparisons are one test on the extended reals, and `0 - a = -a`. -/
theorem softplus_sub_form (z : EReal) :
    Scalar.select (Ideal.cmp .one (z - z0) (z - z0)) (z + z0)
      (max z z0 + Ideal.log1p (Ideal.exp (z0 - max (z - z0) (-(z - z0))))) = softplus z := by
  have h0 : z0 - max (z - z0) (-(z - z0)) = -(max (z - z0) (-(z - z0))) := by
    rw [z0_eq, sub_eq_add_neg, zero_add]
  rw [h0]
  rfl

/-- The low-rank pre-activation at row `u`, channel `d`: `((x·W1)·W2)(u,d) + b(d)`, the bias read through `bias d`. -/
def preAct (x : (⟨2, ![256, 5120]⟩ : Shape).Idx → EReal) (w1 : (⟨2, ![5120, 160]⟩ : Shape).Idx → EReal)
    (w2 : (⟨2, ![160, 5120]⟩ : Shape).Idx → EReal) (bias : Fin 5120 → EReal) (u : Fin 256) (d : Fin 5120) : EReal :=
  (∑ k : Fin 160, (∑ j : Fin 5120, x (ix2 u j) * w1 (ix2 j k)) * w2 (ix2 k d)) + bias d

/-- The step size `dt = softplus(pre)` at row `u`, channel `d`. -/
def stepAt (x : (⟨2, ![256, 5120]⟩ : Shape).Idx → EReal) (w1 : (⟨2, ![5120, 160]⟩ : Shape).Idx → EReal)
    (w2 : (⟨2, ![160, 5120]⟩ : Shape).Idx → EReal) (bias : Fin 5120 → EReal) (u : Fin 256) (d : Fin 5120) : EReal :=
  softplus (preAct x w1 w2 bias u d)

/-- The input projection `B = x·Wb` at row `u`, state `n`. -/
def inProjAt (x : (⟨2, ![256, 5120]⟩ : Shape).Idx → EReal) (wb : (⟨2, ![5120, 16]⟩ : Shape).Idx → EReal)
    (u : Fin 256) (n : Fin 16) : EReal :=
  ∑ j : Fin 5120, x (ix2 u j) * wb (ix2 j n)

/-- The step sizes as an array. -/
def stepArr (x : (⟨2, ![256, 5120]⟩ : Shape).Idx → EReal) (w1 : (⟨2, ![5120, 160]⟩ : Shape).Idx → EReal)
    (w2 : (⟨2, ![160, 5120]⟩ : Shape).Idx → EReal) (bias : Fin 5120 → EReal) : (⟨2, ![256, 5120]⟩ : Shape).Idx → EReal :=
  fun i => stepAt x w1 w2 bias ⟨(i 0).val, (i 0).isLt⟩ ⟨(i 1).val, (i 1).isLt⟩

/-- The input projection as an array. -/
def inProjArr (x : (⟨2, ![256, 5120]⟩ : Shape).Idx → EReal) (wb : (⟨2, ![5120, 16]⟩ : Shape).Idx → EReal) :
    (⟨2, ![256, 16]⟩ : Shape).Idx → EReal :=
  fun i => inProjAt x wb ⟨(i 0).val, (i 0).isLt⟩ ⟨(i 1).val, (i 1).isLt⟩

theorem stepArr_ix2 (x : (⟨2, ![256, 5120]⟩ : Shape).Idx → EReal) (w1 : (⟨2, ![5120, 160]⟩ : Shape).Idx → EReal)
    (w2 : (⟨2, ![160, 5120]⟩ : Shape).Idx → EReal) (bias : Fin 5120 → EReal) (u : Fin 256) (d : Fin 5120) :
    stepArr x w1 w2 bias (ix2 u d) = stepAt x w1 w2 bias u d := rfl

theorem inProjArr_ix2 (x : (⟨2, ![256, 5120]⟩ : Shape).Idx → EReal) (wb : (⟨2, ![5120, 16]⟩ : Shape).Idx → EReal)
    (u : Fin 256) (n : Fin 16) : inProjArr x wb (ix2 u n) = inProjAt x wb u n := rfl

/-- One state update from given step sizes `dt` and projection `B`: `abar·h + (dt(u,d)·B(u,n))·x(u,d)` at `(u,d,n)`. -/
def combineAt (abar h : (⟨3, ![256, 5120, 16]⟩ : Shape).Idx → EReal) (x dt : (⟨2, ![256, 5120]⟩ : Shape).Idx → EReal)
    (B : (⟨2, ![256, 16]⟩ : Shape).Idx → EReal) (u : Fin 256) (d : Fin 5120) (n : Fin 16) : EReal :=
  abar (ix3 u d n) * h (ix3 u d n) + (dt (ix2 u d) * B (ix2 u n)) * x (ix2 u d)

/-- The state update as an array. -/
def combineArr (abar h : (⟨3, ![256, 5120, 16]⟩ : Shape).Idx → EReal) (x dt : (⟨2, ![256, 5120]⟩ : Shape).Idx → EReal)
    (B : (⟨2, ![256, 16]⟩ : Shape).Idx → EReal) : (⟨3, ![256, 5120, 16]⟩ : Shape).Idx → EReal :=
  fun i => combineAt abar h x dt B ⟨(i 0).val, (i 0).isLt⟩ ⟨(i 1).val, (i 1).isLt⟩ ⟨(i 2).val, (i 2).isLt⟩

theorem combineArr_ix3 (abar h : (⟨3, ![256, 5120, 16]⟩ : Shape).Idx → EReal) (x dt : (⟨2, ![256, 5120]⟩ : Shape).Idx → EReal)
    (B : (⟨2, ![256, 16]⟩ : Shape).Idx → EReal) (u : Fin 256) (d : Fin 5120) (n : Fin 16) :
    combineArr abar h x dt B (ix3 u d n) = combineAt abar h x dt B u d n := rfl

/-- The whole step: the new state from the seven inputs. -/
def newState (x : (⟨2, ![256, 5120]⟩ : Shape).Idx → EReal) (w1 : (⟨2, ![5120, 160]⟩ : Shape).Idx → EReal)
    (w2 : (⟨2, ![160, 5120]⟩ : Shape).Idx → EReal) (b : (⟨1, ![5120]⟩ : Shape).Idx → EReal)
    (wb : (⟨2, ![5120, 16]⟩ : Shape).Idx → EReal) (abar h : (⟨3, ![256, 5120, 16]⟩ : Shape).Idx → EReal) :
    (⟨3, ![256, 5120, 16]⟩ : Shape).Idx → EReal :=
  combineArr abar h x (stepArr x w1 w2 fun d => b (ix1 d)) (inProjArr x wb)

end Cert.Scan

end
-- ==== Proof.RefValue.lean ====
/-
  The reference's result is the scan step of Spec.lean.

  The reference computes, on the host: the two chained products (x·W1)·W2, the bias broadcast along the rows, softplus
  through jax's `logaddexp(z, 0)`, the projection x·Wb, and the state update with dt and x broadcast along the state
  axis and B along the channel axis. Read one operation at a time at the index (u, d, n), every broadcast lands on the
  coordinates it keeps — (u,d) for dt and x, (u,n) for B, d for the bias — and each product is the sum over its one
  contracted axis, so the result at (u,d,n) is `newState` at (u,d,n), sum for sum and factor for factor.
-/
import proofs.«137971_j39582418600449_2_alg».proof.Proof.Gen.ReferenceIdeal.Read
import proofs.«137971_j39582418600449_2_alg».proof.Proof.Spec

noncomputable section

open scoped BigOperators

namespace Cert.ReferenceIdeal.RefValue

open Cert.ReferenceIdeal Cert.ReferenceIdeal.Read Idealize.ShloMosaic Idealize.ShloMosaic.ValueIdx Cert.Scan

/-! ## Where each operand is read -/

theorem lidx0_eq (u : Fin 256) (k : Fin 160) (j : Fin 5120) : lidx_main_v0 (ix2 u k) j = ix2 u j :=
  funext fun a => by match a with | ⟨0, _⟩ => rfl | ⟨1, _⟩ => rfl
theorem ridx0_eq (u : Fin 256) (k : Fin 160) (j : Fin 5120) : ridx_main_v0 (ix2 u k) j = ix2 j k :=
  funext fun a => by match a with | ⟨0, _⟩ => rfl | ⟨1, _⟩ => rfl
theorem lidx1_eq (u : Fin 256) (d : Fin 5120) (k : Fin 160) : lidx_main_v1 (ix2 u d) k = ix2 u k :=
  funext fun a => by match a with | ⟨0, _⟩ => rfl | ⟨1, _⟩ => rfl
theorem ridx1_eq (u : Fin 256) (d : Fin 5120) (k : Fin 160) : ridx_main_v1 (ix2 u d) k = ix2 k d :=
  funext fun a => by match a with | ⟨0, _⟩ => rfl | ⟨1, _⟩ => rfl
theorem lidx6_eq (u : Fin 256) (n : Fin 16) (j : Fin 5120) : lidx_main_v6 (ix2 u n) j = ix2 u j :=
  funext fun a => by match a with | ⟨0, _⟩ => rfl | ⟨1, _⟩ => rfl
theorem ridx6_eq (u : Fin 256) (n : Fin 16) (j : Fin 5120) : ridx_main_v6 (ix2 u n) j = ix2 j n :=
  funext fun a => by match a with | ⟨0, _⟩ => rfl | ⟨1, _⟩ => rfl
/-- The bias, broadcast to a row and then down the rows, is read at the channel. -/
theorem bias_idx_eq (u : Fin 256) (d : Fin 5120) : idx_main_v2 (idx_main_v3 (ix2 u d)) = ix1 d :=
  funext fun a => by match a with | ⟨0, _⟩ => rfl
/-- dt, given a unit state axis and broadcast along it, is read at (u, d). -/
theorem dt_idx_eq (u : Fin 256) (d : Fin 5120) (n : Fin 16) : idx_main_v7 (idx_main_v9 (ix3 u d n)) = ix2 u d :=
  funext fun a => by match a with | ⟨0, _⟩ => rfl | ⟨1, _⟩ => rfl
/-- B, given a unit channel axis and broadcast along it, is read at (u, n). -/
theorem B_idx_eq (u : Fin 256) (d : Fin 5120) (n : Fin 16) : idx_main_v8 (idx_main_v10 (ix3 u d n)) = ix2 u n :=
  funext fun a => by match a with | ⟨0, _⟩ => rfl | ⟨1, _⟩ => rfl
/-- x, given a unit state axis and broadcast along it, is read at (u, d). -/
theorem x_idx_eq (u : Fin 256) (d : Fin 5120) (n : Fin 16) : idx_main_v13 (idx_main_v14 (ix3 u d n)) = ix2 u d :=
  funext fun a => by match a with | ⟨0, _⟩ => rfl | ⟨1, _⟩ => rfl

/-! ## The stages -/

/-- The pre-activation: the second product's sum over the rank, each term the first product's sum over the channels,
    plus the bias at the channel. -/
theorem pre_eq (x0 : (⟨S256x5120, .f32⟩ : BufTy).Contents (Elt Ideal)) (x1 : (⟨S5120x160, .f32⟩ : BufTy).Contents (Elt Ideal))
    (x2 : (⟨S160x5120, .f32⟩ : BufTy).Contents (Elt Ideal)) (x3 : (⟨S5120, .f32⟩ : BufTy).Contents (Elt Ideal))
    (u : Fin 256) (d : Fin 5120) :
    val_main_v4 (F := Ideal) x0 x1 x2 x3 (ix2 u d) = preAct x0 x1 x2 (fun d => x3 (ix1 d)) u d := by
  rw [val_main_v4_apply, val_main_v1_apply, val_main_v3_apply, val_main_v2_apply, bias_idx_eq]
  show (∑ k : Fin 160, val_main_v0 (F := Ideal) x0 x1 (lidx_main_v1 (ix2 u d) k) * x2 (ridx_main_v1 (ix2 u d) k)) + x3 (ix1 d) = _
  unfold preAct
  refine congrArg (· + x3 (ix1 d)) (Finset.sum_congr rfl fun k _ => ?_)
  rw [lidx1_eq, ridx1_eq, val_main_v0_apply]
  refine congrArg (· * x2 (ix2 k d)) (Finset.sum_congr rfl fun j _ => ?_)
  rw [lidx0_eq, ridx0_eq]

/-- The step size: jax's `logaddexp(pre, 0)`, operation for operation the `softplus` of Spec.lean. -/
theorem dt_eq (x0 : (⟨S256x5120, .f32⟩ : BufTy).Contents (Elt Ideal)) (x1 : (⟨S5120x160, .f32⟩ : BufTy).Contents (Elt Ideal))
    (x2 : (⟨S160x5120, .f32⟩ : BufTy).Contents (Elt Ideal)) (x3 : (⟨S5120, .f32⟩ : BufTy).Contents (Elt Ideal))
    (u : Fin 256) (d : Fin 5120) :
    val_main_v5 (F := Ideal) x0 x1 x2 x3 (ix2 u d) = stepAt x0 x1 x2 (fun d => x3 (ix1 d)) u d := by
  simp only [val_main_v5_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, pre_eq]
  rfl

/-- The input projection: the sum over the channels. -/
theorem B_eq (x0 : (⟨S256x5120, .f32⟩ : BufTy).Contents (Elt Ideal)) (x4 : (⟨S5120x16, .f32⟩ : BufTy).Contents (Elt Ideal))
    (u : Fin 256) (n : Fin 16) :
    val_main_v6 (F := Ideal) x0 x4 (ix2 u n) = inProjAt x0 x4 u n := by
  rw [val_main_v6_apply]
  unfold inProjAt
  refine Finset.sum_congr rfl fun j _ => ?_
  rw [lidx6_eq, ridx6_eq]

/-- The reference's result array is `newState` of its seven arguments. -/
theorem result_eq (x0 : (⟨S256x5120, .f32⟩ : BufTy).Contents (Elt Ideal)) (x1 : (⟨S5120x160, .f32⟩ : BufTy).Contents (Elt Ideal))
    (x2 : (⟨S160x5120, .f32⟩ : BufTy).Contents (Elt Ideal)) (x3 : (⟨S5120, .f32⟩ : BufTy).Contents (Elt Ideal))
    (x4 : (⟨S5120x16, .f32⟩ : BufTy).Contents (Elt Ideal)) (x5 x6 : (⟨S256x5120x16, .f32⟩ : BufTy).Contents (Elt Ideal)) :
    val_main_v16 (F := Ideal) x0 x1 x2 x3 x4 x5 x6 = newState x0 x1 x2 x3 x4 x5 x6 := by
  funext i
  obtain ⟨u, d, n, rfl⟩ : ∃ (u : Fin 256) (d : Fin 5120) (n : Fin 16), i = ix3 u d n := ⟨i 0, i 1, i 2, eq_ix3 i⟩
  rw [val_main_v16_apply, val_main_v12_apply, val_main_v15_apply, val_main_v11_apply, val_main_v9_apply, val_main_v7_apply,
    val_main_v10_apply, val_main_v8_apply, val_main_v14_apply, val_main_v13_apply, dt_idx_eq, B_idx_eq, x_idx_eq, dt_eq, B_eq]
  rfl

end Cert.ReferenceIdeal.RefValue

end
-- ==== Proof.Payload.lean ====
/-
  What each kernel body stores, read at one index.

  First kernel (one grid point, whole arrays): with the roundings to bf16 the identity on the extended reals, its first
  store is softplus of ((x·W1)·W2)(u,d) + bias(0,d) — each matrix product into a zero accumulator being the plain sum over
  its contracted axis, the bias a one-row array broadcast down the rows — and its second store is (x·Wb)(u,n).
  Second kernel (a 32×128×16 tile): abar·h + (dt(p,q)·B(p,r))·x(p,q) at (p,q,r), where dt and x gain a trailing unit axis and
  B a middle one before being broadcast to the tile.
-/
import proofs.«137971_j39582418600449_2_alg».proof.Proof.Gen.KernelIdeal.Skeleton
import proofs.«137971_j39582418600449_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Scan

/-! ## The three matrix products as sums -/

/-! ### x·W1 : [256,5120]·[5120,160] -/

theorem mm_xw1_lhs0 (i : S256x160.Idx) (q : dot_S256x5120_S5120x160_S256x160_1_0_0_1_n_n.contr.Idx) : (dot_S256x5120_S5120x160_S256x160_1_0_0_1_n_n.lhsIdx i q 0).val = (i 0).val := by
  unfold DotDims.lhsIdx
  rw [dif_neg (show ¬(0 : Fin S256x5120.rank) ∈ dot_S256x5120_S5120x160_S256x160_1_0_0_1_n_n.lhsBatch by decide), dif_pos (show (0 : Fin S256x5120.rank) ∈ dot_S256x5120_S5120x160_S256x160_1_0_0_1_n_n.lhsNonContracting by decide)]
  rfl
theorem mm_xw1_rhs1 (i : S256x160.Idx) (q : dot_S256x5120_S5120x160_S256x160_1_0_0_1_n_n.contr.Idx) : (dot_S256x5120_S5120x160_S256x160_1_0_0_1_n_n.rhsIdx i q 1).val = (i 1).val := by
  unfold DotDims.rhsIdx
  rw [dif_neg (show ¬(1 : Fin S5120x160.rank) ∈ dot_S256x5120_S5120x160_S256x160_1_0_0_1_n_n.rhsBatch by decide), dif_pos (show (1 : Fin S5120x160.rank) ∈ dot_S256x5120_S5120x160_S256x160_1_0_0_1_n_n.rhsNonContracting by decide)]
  rfl

/-- Into a zero accumulator the product at (u, c) is the sum over the one contracted axis. -/
theorem mm_xw1 {φ₁ φ₂ : FTy} (l : FVec Ideal S256x5120 φ₁) (r : FVec Ideal S5120x160 φ₂) (u : Fin 256) (c : Fin 160) :
    matmul dot_S256x5120_S5120x160_S256x160_1_0_0_1_n_n none l r (constant (F := Ideal) S256x160 .f32 0x00000000#32) (ix2 u c)
      = ∑ j : Fin 5120, l (ix2 u j) * r (ix2 j c) := by
  refine (Ideal.matmul_constant_zero_apply dot_S256x5120_S5120x160_S256x160_1_0_0_1_n_n none l r (ix2 u c)).trans ?_
  rw [← Equiv.sum_comp (contrEquiv1 dot_S256x5120_S5120x160_S256x160_1_0_0_1_n_n 5120 rfl rfl).symm]
  refine Finset.sum_congr rfl fun j _ => ?_
  have hj := contrEquiv1_symm_val dot_S256x5120_S5120x160_S256x160_1_0_0_1_n_n 5120 rfl rfl j
  have el : dot_S256x5120_S5120x160_S256x160_1_0_0_1_n_n.lhsIdx (ix2 u c) ((contrEquiv1 dot_S256x5120_S5120x160_S256x160_1_0_0_1_n_n 5120 rfl rfl).symm j) = ix2 u j := funext fun a => Fin.ext (by
    match a with
    | ⟨0, _⟩ => exact mm_xw1_lhs0 _ _
    | ⟨1, _⟩ => exact (dot_S256x5120_S5120x160_S256x160_1_0_0_1_n_n.lhsIdx_val_of_single rfl _ _).trans hj)
  have er : dot_S256x5120_S5120x160_S256x160_1_0_0_1_n_n.rhsIdx (ix2 u c) ((contrEquiv1 dot_S256x5120_S5120x160_S256x160_1_0_0_1_n_n 5120 rfl rfl).symm j) = ix2 j c := funext fun a => Fin.ext (by
    match a with
    | ⟨0, _⟩ => exact (dot_S256x5120_S5120x160_S256x160_1_0_0_1_n_n.rhsIdx_val_of_single rfl _ _).trans hj
    | ⟨1, _⟩ => exact mm_xw1_rhs1 _ _)
  rw [el, er]

/-! ### (x·W1)·W2 : [256,160]·[160,5120] -/

theorem mm_w2_lhs0 (i : S256x5120.Idx) (q : dot_S256x160_S160x5120_S256x5120_1_0_0_1_n_n.contr.Idx) : (dot_S256x160_S160x5120_S256x5120_1_0_0_1_n_n.lhsIdx i q 0).val = (i 0).val := by
  unfold DotDims.lhsIdx
  rw [dif_neg (show ¬(0 : Fin S256x160.rank) ∈ dot_S256x160_S160x5120_S256x5120_1_0_0_1_n_n.lhsBatch by decide), dif_pos (show (0 : Fin S256x160.rank) ∈ dot_S256x160_S160x5120_S256x5120_1_0_0_1_n_n.lhsNonContracting by decide)]
  rfl
theorem mm_w2_rhs1 (i : S256x5120.Idx) (q : dot_S256x160_S160x5120_S256x5120_1_0_0_1_n_n.contr.Idx) : (dot_S256x160_S160x5120_S256x5120_1_0_0_1_n_n.rhsIdx i q 1).val = (i 1).val := by
  unfold DotDims.rhsIdx
  rw [dif_neg (show ¬(1 : Fin S160x5120.rank) ∈ dot_S256x160_S160x5120_S256x5120_1_0_0_1_n_n.rhsBatch by decide), dif_pos (show (1 : Fin S160x5120.rank) ∈ dot_S256x160_S160x5120_S256x5120_1_0_0_1_n_n.rhsNonContracting by decide)]
  rfl

/-- Into a zero accumulator the product at (u, c) is the sum over the one contracted axis. -/
theorem mm_w2 {φ₁ φ₂ : FTy} (l : FVec Ideal S256x160 φ₁) (r : FVec Ideal S160x5120 φ₂) (u : Fin 256) (c : Fin 5120) :
    matmul dot_S256x160_S160x5120_S256x5120_1_0_0_1_n_n none l r (constant (F := Ideal) S256x5120 .f32 0x00000000#32) (ix2 u c)
      = ∑ j : Fin 160, l (ix2 u j) * r (ix2 j c) := by
  refine (Ideal.matmul_constant_zero_apply dot_S256x160_S160x5120_S256x5120_1_0_0_1_n_n none l r (ix2 u c)).trans ?_
  rw [← Equiv.sum_comp (contrEquiv1 dot_S256x160_S160x5120_S256x5120_1_0_0_1_n_n 160 rfl rfl).symm]
  refine Finset.sum_congr rfl fun j _ => ?_
  have hj := contrEquiv1_symm_val dot_S256x160_S160x5120_S256x5120_1_0_0_1_n_n 160 rfl rfl j
  have el : dot_S256x160_S160x5120_S256x5120_1_0_0_1_n_n.lhsIdx (ix2 u c) ((contrEquiv1 dot_S256x160_S160x5120_S256x5120_1_0_0_1_n_n 160 rfl rfl).symm j) = ix2 u j := funext fun a => Fin.ext (by
    match a with
    | ⟨0, _⟩ => exact mm_w2_lhs0 _ _
    | ⟨1, _⟩ => exact (dot_S256x160_S160x5120_S256x5120_1_0_0_1_n_n.lhsIdx_val_of_single rfl _ _).trans hj)
  have er : dot_S256x160_S160x5120_S256x5120_1_0_0_1_n_n.rhsIdx (ix2 u c) ((contrEquiv1 dot_S256x160_S160x5120_S256x5120_1_0_0_1_n_n 160 rfl rfl).symm j) = ix2 j c := funext fun a => Fin.ext (by
    match a with
    | ⟨0, _⟩ => exact (dot_S256x160_S160x5120_S256x5120_1_0_0_1_n_n.rhsIdx_val_of_single rfl _ _).trans hj
    | ⟨1, _⟩ => exact mm_w2_rhs1 _ _)
  rw [el, er]

/-! ### x·Wb : [256,5120]·[5120,16] -/

theorem mm_xwb_lhs0 (i : S256x16.Idx) (q : dot_S256x5120_S5120x16_S256x16_1_0_0_1_n_n.contr.Idx) : (dot_S256x5120_S5120x16_S256x16_1_0_0_1_n_n.lhsIdx i q 0).val = (i 0).val := by
  unfold DotDims.lhsIdx
  rw [dif_neg (show ¬(0 : Fin S256x5120.rank) ∈ dot_S256x5120_S5120x16_S256x16_1_0_0_1_n_n.lhsBatch by decide), dif_pos (show (0 : Fin S256x5120.rank) ∈ dot_S256x5120_S5120x16_S256x16_1_0_0_1_n_n.lhsNonContracting by decide)]
  rfl
theorem mm_xwb_rhs1 (i : S256x16.Idx) (q : dot_S256x5120_S5120x16_S256x16_1_0_0_1_n_n.contr.Idx) : (dot_S256x5120_S5120x16_S256x16_1_0_0_1_n_n.rhsIdx i q 1).val = (i 1).val := by
  unfold DotDims.rhsIdx
  rw [dif_neg (show ¬(1 : Fin S5120x16.rank) ∈ dot_S256x5120_S5120x16_S256x16_1_0_0_1_n_n.rhsBatch by decide), dif_pos (show (1 : Fin S5120x16.rank) ∈ dot_S256x5120_S5120x16_S256x16_1_0_0_1_n_n.rhsNonContracting by decide)]
  rfl

/-- Into a zero accumulator the product at (u, c) is the sum over the one contracted axis. -/
theorem mm_xwb {φ₁ φ₂ : FTy} (l : FVec Ideal S256x5120 φ₁) (r : FVec Ideal S5120x16 φ₂) (u : Fin 256) (c : Fin 16) :
    matmul dot_S256x5120_S5120x16_S256x16_1_0_0_1_n_n none l r (constant (F := Ideal) S256x16 .f32 0x00000000#32) (ix2 u c)
      = ∑ j : Fin 5120, l (ix2 u j) * r (ix2 j c) := by
  refine (Ideal.matmul_constant_zero_apply dot_S256x5120_S5120x16_S256x16_1_0_0_1_n_n none l r (ix2 u c)).trans ?_
  rw [← Equiv.sum_comp (contrEquiv1 dot_S256x5120_S5120x16_S256x16_1_0_0_1_n_n 5120 rfl rfl).symm]
  refine Finset.sum_congr rfl fun j _ => ?_
  have hj := contrEquiv1_symm_val dot_S256x5120_S5120x16_S256x16_1_0_0_1_n_n 5120 rfl rfl j
  have el : dot_S256x5120_S5120x16_S256x16_1_0_0_1_n_n.lhsIdx (ix2 u c) ((contrEquiv1 dot_S256x5120_S5120x16_S256x16_1_0_0_1_n_n 5120 rfl rfl).symm j) = ix2 u j := funext fun a => Fin.ext (by
    match a with
    | ⟨0, _⟩ => exact mm_xwb_lhs0 _ _
    | ⟨1, _⟩ => exact (dot_S256x5120_S5120x16_S256x16_1_0_0_1_n_n.lhsIdx_val_of_single rfl _ _).trans hj)
  have er : dot_S256x5120_S5120x16_S256x16_1_0_0_1_n_n.rhsIdx (ix2 u c) ((contrEquiv1 dot_S256x5120_S5120x16_S256x16_1_0_0_1_n_n 5120 rfl rfl).symm j) = ix2 j c := funext fun a => Fin.ext (by
    match a with
    | ⟨0, _⟩ => exact (dot_S256x5120_S5120x16_S256x16_1_0_0_1_n_n.rhsIdx_val_of_single rfl _ _).trans hj
    | ⟨1, _⟩ => exact mm_xwb_rhs1 _ _)
  rw [el, er]

/-! ## The first kernel's stores -/

/-- The body's softplus on any vector `z`, read at an index: the guard spelt with the ordered comparison and the negation
    as `0 - |z - 0|`; it is `softplus` of the entry. -/
theorem softplus_tail (z : FVec Ideal S256x5120 .f32) (i : S256x5120.Idx) :
    select (cmpf .one (subf z (broadcast S256x5120 (Scalar.ofBits (F := Ideal) .f32 0x00000000#32))) (subf z (broadcast S256x5120 (Scalar.ofBits (F := Ideal) .f32 0x00000000#32)))) (addf z (broadcast S256x5120 (Scalar.ofBits (F := Ideal) .f32 0x00000000#32)))
      (addf (maximumf z (broadcast S256x5120 (Scalar.ofBits (F := Ideal) .f32 0x00000000#32))) (log1p (exp (subf (broadcast S256x5120 (Scalar.ofBits (F := Ideal) .f32 0x00000000#32)) (absf (subf z (broadcast S256x5120 (Scalar.ofBits (F := Ideal) .f32 0x00000000#32)))))))) i
      = softplus (z i) :=
  softplus_sub_form (z i)

/-- The step-size store at (u, d). -/
theorem pay2_at (v0 : Vec Ideal S256x5120 .f32) (v2 : Vec Ideal S5120x160 .f32) (v6 : Vec Ideal S160x5120 .f32)
    (v9 : Vec Ideal S1x5120 .f32) (u : Fin 256) (d : Fin 5120) :
    k0_pay2 v0 v2 v6 v9 (ix2 u d) = stepAt v0 v2 v6 (fun d => v9 (ix2 (0 : Fin 1) d)) u d := by
  unfold k0_pay2 k0_pay1
  refine (softplus_tail _ (ix2 u d)).trans (congrArg softplus ?_)
  refine (congrArg₂ (· + ·) (mm_w2 _ _ u d) ((broadcastTo_1b_ab_apply _ _ u d).trans
    (congrFun (shapeCast_self v9 _) _))).trans ?_
  unfold preAct
  refine congrArg (· + v9 (ix2 (0 : Fin 1) d)) (Finset.sum_congr rfl fun k _ => ?_)
  exact congrArg (· * v6 (ix2 k d)) (mm_xw1 _ _ u k)

/-- The projection store at (u, n). -/
theorem pay3_at (v0 : Vec Ideal S256x5120 .f32) (v28 : Vec Ideal S5120x16 .f32) (u : Fin 256) (n : Fin 16) :
    k0_pay3 v0 v28 (ix2 u n) = inProjAt v0 v28 u n := by
  unfold k0_pay3 k0_pay1
  exact mm_xwb _ _ u n

/-! ## The second kernel's store -/

section Layout
variable {α : Type}

/-- A [32,128] array given a trailing unit axis reads, at (p, q, 0), its entry (p, q). -/
theorem cast_trailing (v : S32x128.Idx → α) (h : S32x128.ShapeCasts S32x128x1) (p : Fin 32) (q : Fin 128) :
    shapeCast S32x128x1 v h (ix3 p q (0 : Fin 1)) = v (ix2 p q) := by
  refine shapeCast_apply v h (ix3 p q (0 : Fin 1)) (ix2 p q) ?_
  rw [Shape.rowMajor_val_two, Shape.rowMajor_val_three]
  show p.val * 128 + q.val = (p.val * 128 + q.val) * 1 + 0
  omega

/-- A [32,16] array given a middle unit axis reads, at (p, 0, r), its entry (p, r). -/
theorem cast_middle (v : S32x16.Idx → α) (h : S32x16.ShapeCasts S32x1x16) (p : Fin 32) (r : Fin 16) :
    shapeCast S32x1x16 v h (ix3 p (0 : Fin 1) r) = v (ix2 p r) := by
  refine shapeCast_apply v h (ix3 p (0 : Fin 1) r) (ix2 p r) ?_
  rw [Shape.rowMajor_val_two, Shape.rowMajor_val_three]
  show p.val * 16 + r.val = (p.val * 1 + 0) * 16 + r.val
  omega

/-- Broadcast along the trailing axis: (p, q, r) reads (p, q, 0). -/
theorem bcast_trailing (w : S32x128x1.Idx → α) (h : S32x128x1.Broadcasts S32x128x16) (p : Fin 32) (q : Fin 128) (r : Fin 16) :
    broadcastTo S32x128x16 w h (ix3 p q r) = w (ix3 p q (0 : Fin 1)) := by
  refine broadcastTo_apply w h (ix3 p q r) (ix3 p q (0 : Fin 1)) fun a => ?_
  match a with
  | ⟨0, _⟩ => show p.val = if (32 : Nat) = 1 then 0 else p.val; rw [if_neg (by decide)]
  | ⟨1, _⟩ => show q.val = if (128 : Nat) = 1 then 0 else q.val; rw [if_neg (by decide)]
  | ⟨2, _⟩ => show 0 = if (1 : Nat) = 1 then 0 else r.val; rw [if_pos rfl]

/-- Broadcast along the middle axis: (p, q, r) reads (p, 0, r). -/
theorem bcast_middle (w : S32x1x16.Idx → α) (h : S32x1x16.Broadcasts S32x128x16) (p : Fin 32) (q : Fin 128) (r : Fin 16) :
    broadcastTo S32x128x16 w h (ix3 p q r) = w (ix3 p (0 : Fin 1) r) := by
  refine broadcastTo_apply w h (ix3 p q r) (ix3 p (0 : Fin 1) r) fun a => ?_
  match a with
  | ⟨0, _⟩ => show p.val = if (32 : Nat) = 1 then 0 else p.val; rw [if_neg (by decide)]
  | ⟨1, _⟩ => show 0 = if (1 : Nat) = 1 then 0 else q.val; rw [if_pos rfl]
  | ⟨2, _⟩ => show r.val = if (16 : Nat) = 1 then 0 else r.val; rw [if_neg (by decide)]

end Layout

/-- The state-update store at (p, q, r) of the tile. -/
theorem pay1_at (v0 v1 : Vec Ideal S32x128x16 .f32) (v2 v3 : Vec Ideal S32x128 .f32) (v5 : Vec Ideal S32x16 .f32)
    (p : Fin 32) (q : Fin 128) (r : Fin 16) :
    k1_pay1 v0 v1 v2 v3 v5 (ix3 p q r)
      = v0 (ix3 p q r) * v1 (ix3 p q r) + (v3 (ix2 p q) * v5 (ix2 p r)) * v2 (ix2 p q) := by
  unfold k1_pay1
  refine congrArg₂ (· + ·) rfl (congrArg₂ (· * ·) (congrArg₂ (· * ·) ?_ ?_) ?_)
  · exact (bcast_trailing _ _ p q r).trans ((cast_trailing _ _ p q).trans (congrFun (shapeCast_self v3 _) _))
  · exact (bcast_middle _ _ p q r).trans ((cast_middle _ _ p r).trans (congrFun (shapeCast_self v5 _) _))
  · exact (bcast_trailing _ _ p q r).trans (cast_trailing _ _ p q)

/-- The same at any index of the tile, its coordinates named. -/
theorem pay1_idx (v0 v1 : Vec Ideal S32x128x16 .f32) (v2 v3 : Vec Ideal S32x128 .f32) (v5 : Vec Ideal S32x16 .f32)
    (j : S32x128x16.Idx) :
    k1_pay1 v0 v1 v2 v3 v5 j
      = v0 j * v1 j + (v3 (ix2 (⟨(j 0).val, (j 0).isLt⟩ : Fin 32) (⟨(j 1).val, (j 1).isLt⟩ : Fin 128))
          * v5 (ix2 (⟨(j 0).val, (j 0).isLt⟩ : Fin 32) (⟨(j 2).val, (j 2).isLt⟩ : Fin 16)))
        * v2 (ix2 (⟨(j 0).val, (j 0).isLt⟩ : Fin 32) (⟨(j 1).val, (j 1).isLt⟩ : Fin 128)) := by
  obtain ⟨p, q, r, rfl⟩ : ∃ (p : Fin 32) (q : Fin 128) (r : Fin 16), j = ix3 p q r := ⟨j 0, j 1, j 2, eq_ix3 j⟩
  exact pay1_at v0 v1 v2 v3 v5 p q r

/-- The step-size store at any index. -/
theorem pay2_idx (v0 : Vec Ideal S256x5120 .f32) (v2 : Vec Ideal S5120x160 .f32) (v6 : Vec Ideal S160x5120 .f32)
    (v9 : Vec Ideal S1x5120 .f32) (j : S256x5120.Idx) :
    k0_pay2 v0 v2 v6 v9 j = stepArr v0 v2 v6 (fun d => v9 (ix2 (0 : Fin 1) d)) j := by
  obtain ⟨u, d, rfl⟩ : ∃ (u : Fin 256) (d : Fin 5120), j = ix2 u d := ⟨j 0, j 1, eq_ix2 j⟩
  exact pay2_at v0 v2 v6 v9 u d

/-- The projection store at any index. -/
theorem pay3_idx (v0 : Vec Ideal S256x5120 .f32) (v28 : Vec Ideal S5120x16 .f32) (j : S256x16.Idx) :
    k0_pay3 v0 v28 j = inProjArr v0 v28 j := by
  obtain ⟨u, n, rfl⟩ : ∃ (u : Fin 256) (n : Fin 16), j = ix2 u n := ⟨j 0, j 1, eq_ix2 j⟩
  exact pay3_at v0 v28 u n

end Cert.KernelIdeal.Payload

end
-- ==== Proof.ProjValue.lean ====
/-
  The first kernel's two result arrays.

  The first pallas_call has a single grid point and every window's block is its whole array, at block index (0, 0). So
  each input block IS the input array as the region finds it, what the point writes back through an output window is the
  body's store read at every index, and that one block covers the output array. Hence, whatever the arrays hold when the
  region is entered (`V`): the step-size array ends at `stepArr` of x, W1, W2 and the one-row bias array, and the
  projection array at `inProjArr` of x and Wb.
-/
import proofs.«137971_j39582418600449_2_alg».proof.Proof.Gen.KernelIdeal.Frame
import proofs.«137971_j39582418600449_2_alg».proof.Proof.Payload

noncomputable section

namespace Cert.KernelIdeal.ProjValue

open Cert.KernelIdeal Cert.KernelIdeal.Gen Idealize.ShloMosaic Idealize.ShloMosaic.TcCoe Idealize.SL.Sem
open Idealize.ShloMosaic.Pipeline (Dat)
open Idealize.ShloMosaic.ValueIdx Cert.Scan Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl

/-- Every window's block index at the one point is (0, 0): decided over the grid. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each input block is its array -/

theorem read0_0 (c : Dev nD) (t : Fin cfg0.N) : iblk0 (F := Ideal) V c 0 t = V c main_arg0 := by
  obtain ⟨e00, e01, e10, e11, e20, e21, e30, e31, e40, e41, e50, e51, e60, e61⟩ := idx_zero t
  funext y
  show V c main_arg0 (((cfg0.win 0).blk t).view.emb y) = V c main_arg0 y
  refine congrArg (V c main_arg0) (funext fun a => Fin.ext ?_)
  match a with
  | ⟨0, _⟩ => show win0_0.index t (0 : Fin 2) * 256 + 1 * (y 0).val = (y 0).val; omega
  | ⟨1, _⟩ => show win0_0.index t (1 : Fin 2) * 5120 + 1 * (y 1).val = (y 1).val; omega

theorem read0_1 (c : Dev nD) (t : Fin cfg0.N) : iblk0 (F := Ideal) V c 1 t = V c main_arg1 := by
  obtain ⟨e00, e01, e10, e11, e20, e21, e30, e31, e40, e41, e50, e51, e60, e61⟩ := idx_zero t
  funext y
  show V c main_arg1 (((cfg0.win 1).blk t).view.emb y) = V c main_arg1 y
  refine congrArg (V c main_arg1) (funext fun a => Fin.ext ?_)
  match a with
  | ⟨0, _⟩ => show win0_1.index t (0 : Fin 2) * 5120 + 1 * (y 0).val = (y 0).val; omega
  | ⟨1, _⟩ => show win0_1.index t (1 : Fin 2) * 160 + 1 * (y 1).val = (y 1).val; omega

theorem read0_2 (c : Dev nD) (t : Fin cfg0.N) : iblk0 (F := Ideal) V c 2 t = V c main_arg2 := by
  obtain ⟨e00, e01, e10, e11, e20, e21, e30, e31, e40, e41, e50, e51, e60, e61⟩ := idx_zero t
  funext y
  show V c main_arg2 (((cfg0.win 2).blk t).view.emb y) = V c main_arg2 y
  refine congrArg (V c main_arg2) (funext fun a => Fin.ext ?_)
  match a with
  | ⟨0, _⟩ => show win0_2.index t (0 : Fin 2) * 160 + 1 * (y 0).val = (y 0).val; omega
  | ⟨1, _⟩ => show win0_2.index t (1 : Fin 2) * 5120 + 1 * (y 1).val = (y 1).val; omega

theorem read0_3 (c : Dev nD) (t : Fin cfg0.N) : iblk0 (F := Ideal) V c 3 t = V c main_v0 := by
  obtain ⟨e00, e01, e10, e11, e20, e21, e30, e31, e40, e41, e50, e51, e60, e61⟩ := idx_zero t
  funext y
  show V c main_v0 (((cfg0.win 3).blk t).view.emb y) = V c main_v0 y
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 5120 + 1 * (y 1).val = (y 1).val; omega

theorem read0_4 (c : Dev nD) (t : Fin cfg0.N) : iblk0 (F := Ideal) V c 4 t = V c main_arg4 := by
  obtain ⟨e00, e01, e10, e11, e20, e21, e30, e31, e40, e41, e50, e51, e60, e61⟩ := idx_zero t
  funext y
  show V c main_arg4 (((cfg0.win 4).blk t).view.emb y) = V c main_arg4 y
  refine congrArg (V c main_arg4) (funext fun a => Fin.ext ?_)
  match a with
  | ⟨0, _⟩ => show win0_4.index t (0 : Fin 2) * 5120 + 1 * (y 0).val = (y 0).val; omega
  | ⟨1, _⟩ => show win0_4.index t (1 : Fin 2) * 16 + 1 * (y 1).val = (y 1).val; omega

/-! ## Output window 5 -/

/-- What the one point writes back through window 5 is the whole array of step sizes. -/
theorem flushed5_eq (c : Dev nD) (t : Fin cfg0.N) :
    (dat0 (F := Ideal) V c).flushed 5 t = ((cfg0.win 5).blk t).view.read (Elt Ideal) (stepArr (V c main_arg0) (V c main_arg1) (V c main_arg2) (fun d => V c main_v0 (ix2 (0 : Fin 1) d))) := by
  show (cfg0.win 5).cut (grid0.coords t) ((dat0 (F := Ideal) V c).after 5 t) = _
  rw [after0_5]
  unfold out0_5
  rw [View.canon_unit_zero hz2]
  simp only [View.ld_unit_zero (S := S256x5120) hz2, View.ld_unit_zero (S := S5120x160) hz2, View.ld_unit_zero (S := S160x5120) hz2, View.ld_unit_zero (S := S1x5120) hz2]
  rw [read0_0 V c t, read0_1 V c t, read0_2 V c t, read0_3 V c t]
  obtain ⟨e00, e01, e10, e11, e20, e21, e30, e31, e40, e41, e50, e51, e60, e61⟩ := idx_zero t
  funext j
  have he : ((cfg0.win 5).blk t).view.emb j = j := funext fun a => Fin.ext (by
    match a with
    | ⟨0, _⟩ => show win0_5.index t (0 : Fin 2) * 256 + 1 * (j 0).val = (j 0).val; omega
    | ⟨1, _⟩ => show win0_5.index t (1 : Fin 2) * 5120 + 1 * (j 1).val = (j 1).val; omega)
  show k0_pay2 (V c main_arg0) (V c main_arg1) (V c main_arg2) (V c main_v0) j = (stepArr (V c main_arg0) (V c main_arg1) (V c main_arg2) (fun d => V c main_v0 (ix2 (0 : Fin 1) d))) (((cfg0.win 5).blk t).view.emb j)
  rw [he]
  exact pay2_idx _ _ _ _ j

/-- An index is in the point's block iff each coordinate is in the block's range. -/
theorem mem_blk5 (t : Fin cfg0.N) (i : S256x5120.Idx) :
    i ∈ ((cfg0.win 5).blk t).view.set ↔ ∀ a : Fin 2, win0_5.index t a * S256x5120.size a ≤ (i a).val ∧ (i a).val < win0_5.index t a * S256x5120.size a + S256x5120.size a := by
  show i ∈ ((View.whole main_v1_0).slice (win0_5.rect t)).set ↔ _
  rw [View.set_slice_whole, Rect.mem_set_unit]
  exact Iff.rfl

/-- The one block is the whole array. -/
theorem cover5 (i : S256x5120.Idx) : ∃ t : Fin cfg0.N, (cfg0.win 5).flush t = true ∧ i ∈ ((cfg0.win 5).blk t).view.set := by
  refine ⟨t0_0, flush0_5 _, ?_⟩
  rw [mem_blk5]
  obtain ⟨e00, e01, e10, e11, e20, e21, e30, e31, e40, e41, e50, e51, e60, e61⟩ := idx_zero t0_0
  have hi0 : (i 0).val < 256 := (i 0).isLt
  have hi1 : (i 1).val < 5120 := (i 1).isLt
  intro a
  match a with
  | ⟨0, _⟩ => show win0_5.index t0_0 (0 : Fin 2) * 256 ≤ (i 0).val ∧ (i 0).val < win0_5.index t0_0 (0 : Fin 2) * 256 + 256; omega
  | ⟨1, _⟩ => show win0_5.index t0_0 (1 : Fin 2) * 5120 ≤ (i 1).val ∧ (i 1).val < win0_5.index t0_0 (1 : Fin 2) * 5120 + 5120; omega

/-- The array after the region. -/
theorem final5 (c : Dev nD) : (dat0 (F := Ideal) V c).arrAt 5 cfg0.N = stepArr (V c main_arg0) (V c main_arg1) (V c main_arg2) (fun d => V c main_v0 (ix2 (0 : Fin 1) d)) :=
  (dat0 (F := Ideal) V c).arrAt_eq_of_cover 5 _ (fun t _ => flushed5_eq V c t) cover5

/-! ## Output window 6 -/

/-- What the one point writes back through window 6 is the whole array of projections. -/
theorem flushed6_eq (c : Dev nD) (t : Fin cfg0.N) :
    (dat0 (F := Ideal) V c).flushed 6 t = ((cfg0.win 6).blk t).view.read (Elt Ideal) (inProjArr (V c main_arg0) (V c main_arg4)) := by
  show (cfg0.win 6).cut (grid0.coords t) ((dat0 (F := Ideal) V c).after 6 t) = _
  rw [after0_6]
  unfold out0_6
  rw [View.canon_unit_zero hz2]
  simp only [View.ld_unit_zero (S := S256x5120) hz2, View.ld_unit_zero (S := S5120x16) hz2]
  rw [read0_0 V c t, read0_4 V c t]
  obtain ⟨e00, e01, e10, e11, e20, e21, e30, e31, e40, e41, e50, e51, e60, e61⟩ := idx_zero t
  funext j
  have he : ((cfg0.win 6).blk t).view.emb j = j := funext fun a => Fin.ext (by
    match a with
    | ⟨0, _⟩ => show win0_6.index t (0 : Fin 2) * 256 + 1 * (j 0).val = (j 0).val; omega
    | ⟨1, _⟩ => show win0_6.index t (1 : Fin 2) * 16 + 1 * (j 1).val = (j 1).val; omega)
  show k0_pay3 (V c main_arg0) (V c main_arg4) j = (inProjArr (V c main_arg0) (V c main_arg4)) (((cfg0.win 6).blk t).view.emb j)
  rw [he]
  exact pay3_idx _ _ j

/-- An index is in the point's block iff each coordinate is in the block's range. -/
theorem mem_blk6 (t : Fin cfg0.N) (i : S256x16.Idx) :
    i ∈ ((cfg0.win 6).blk t).view.set ↔ ∀ a : Fin 2, win0_6.index t a * S256x16.size a ≤ (i a).val ∧ (i a).val < win0_6.index t a * S256x16.size a + S256x16.size a := by
  show i ∈ ((View.whole main_v1_1).slice (win0_6.rect t)).set ↔ _
  rw [View.set_slice_whole, Rect.mem_set_unit]
  exact Iff.rfl

/-- The one block is the whole array. -/
theorem cover6 (i : S256x16.Idx) : ∃ t : Fin cfg0.N, (cfg0.win 6).flush t = true ∧ i ∈ ((cfg0.win 6).blk t).view.set := by
  refine ⟨t0_0, flush0_6 _, ?_⟩
  rw [mem_blk6]
  obtain ⟨e00, e01, e10, e11, e20, e21, e30, e31, e40, e41, e50, e51, e60, e61⟩ := idx_zero t0_0
  have hi0 : (i 0).val < 256 := (i 0).isLt
  have hi1 : (i 1).val < 16 := (i 1).isLt
  intro a
  match a with
  | ⟨0, _⟩ => show win0_6.index t0_0 (0 : Fin 2) * 256 ≤ (i 0).val ∧ (i 0).val < win0_6.index t0_0 (0 : Fin 2) * 256 + 256; omega
  | ⟨1, _⟩ => show win0_6.index t0_0 (1 : Fin 2) * 16 ≤ (i 1).val ∧ (i 1).val < win0_6.index t0_0 (1 : Fin 2) * 16 + 16; omega

/-- The array after the region. -/
theorem final6 (c : Dev nD) : (dat0 (F := Ideal) V c).arrAt 6 cfg0.N = inProjArr (V c main_arg0) (V c main_arg4) :=
  (dat0 (F := Ideal) V c).arrAt_eq_of_cover 6 _ (fun t _ => flushed6_eq V c t) cover6

end Cert.KernelIdeal.ProjValue

end
-- ==== Proof.CombineValue.lean ====
/-
  The second kernel's result array.

  The second pallas_call runs over an 8×40 grid; point t = 40·i + k handles rows 32i..32i+31 and channels 128k..128k+127,
  all sixteen states. Its windows on abar, h and the output are the (i, k, 0) tiles of 32×128×16, those on x and dt the (i, k)
  tiles of 32×128, and that on B the (i, 0) tile of 32×16. So the entry (p, q, r) of the output tile and the entries the body
  reads for it — (p, q, r) of abar and h, (p, q) of x and dt, (p, r) of B — all sit at the same row 32i + p, channel 128k + q
  and state r of their arrays: what a point writes back is its tile of ONE whole-array function, `combineArr` of the arrays
  as the region finds them (`V`). The tiles cover the array (the point for row a, channel b is 40·(a/32) + b/128), so the
  output array ends at that function.
-/
import proofs.«137971_j39582418600449_2_alg».proof.Proof.Gen.KernelIdeal.Frame
import proofs.«137971_j39582418600449_2_alg».proof.Proof.Payload

noncomputable section

namespace Cert.KernelIdeal.CombineValue

open Cert.KernelIdeal Cert.KernelIdeal.Gen Idealize.ShloMosaic Idealize.ShloMosaic.TcCoe Idealize.SL.Sem
open Idealize.ShloMosaic.Pipeline (Dat)
open Idealize.ShloMosaic.ValueIdx Cert.Scan Cert.KernelIdeal.Payload

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at point t, decided over the grid: the output's tile is (t / 40, t % 40, 0), and every input's tile
    has the same row-tile and channel-tile (B's has no channel axis: its second index is 0). -/
theorem idx_tile : ∀ t : Fin cfg1.N,
    win1_5.index t (0 : Fin 3) = t.val / 40 ∧ win1_5.index t (1 : Fin 3) = t.val % 40 ∧ win1_5.index t (2 : Fin 3) = 0
    ∧ win1_0.index t (0 : Fin 3) = t.val / 40 ∧ win1_0.index t (1 : Fin 3) = t.val % 40 ∧ win1_0.index t (2 : Fin 3) = 0
    ∧ win1_1.index t (0 : Fin 3) = t.val / 40 ∧ win1_1.index t (1 : Fin 3) = t.val % 40 ∧ win1_1.index t (2 : Fin 3) = 0
    ∧ win1_2.index t (0 : Fin 2) = t.val / 40 ∧ win1_2.index t (1 : Fin 2) = t.val % 40
    ∧ win1_3.index t (0 : Fin 2) = t.val / 40 ∧ win1_3.index t (1 : Fin 2) = t.val % 40
    ∧ win1_4.index t (0 : Fin 2) = t.val / 40 ∧ win1_4.index t (1 : Fin 2) = 0 :=
  (by decide +kernel : ∀ t : Fin grid1.N, _)

/-- What point t writes back is its tile of `combineArr` of the arrays as the region finds them. -/
theorem flushed_eq (c : Dev nD) (t : Fin cfg1.N) :
    (dat1 (F := Ideal) V c).flushed 5 t = ((cfg1.win 5).blk t).view.read (Elt Ideal)
      (combineArr (V c main_arg5) (V c main_arg6) (V c main_arg0) (V c main_v1_0) (V c main_v1_1)) := by
  show (cfg1.win 5).cut (grid1.coords t) ((dat1 (F := Ideal) V c).after 5 t) = _
  rw [after1_5]
  unfold out1_5
  rw [View.canon_unit_zero hz3]
  simp only [View.ld_unit_zero (S := S32x128x16) hz3, View.ld_unit_zero (S := S32x128) hz2, View.ld_unit_zero (S := S32x16) hz2]
  obtain ⟨o0, o1, o2, a0, a1, a2, h0, h1, h2, x0, x1, d0, d1, b0, b1⟩ := idx_tile t
  funext j
  have hj0 : (j 0).val < 32 := (j 0).isLt
  have hj1 : (j 1).val < 128 := (j 1).isLt
  have hj2 : (j 2).val < 16 := (j 2).isLt
  -- where each block's entry sits in its array: tile index × tile size + the coordinate inside the tile
  have E0 : ((cfg1.win 0).blk t).view.emb j = ix3 (⟨((((cfg1.win 5).blk t).view.emb j) 0).val, ((((cfg1.win 5).blk t).view.emb j) 0).isLt⟩ : Fin 256) (⟨((((cfg1.win 5).blk t).view.emb j) 1).val, ((((cfg1.win 5).blk t).view.emb j) 1).isLt⟩ : Fin 5120) (⟨((((cfg1.win 5).blk t).view.emb j) 2).val, ((((cfg1.win 5).blk t).view.emb j) 2).isLt⟩ : Fin 16) := funext fun a => Fin.ext (by
    match a with
    | ⟨0, _⟩ => show win1_0.index t (0 : Fin 3) * 32 + 1 * (j 0).val = win1_5.index t (0 : Fin 3) * 32 + 1 * (j 0).val; omega
    | ⟨1, _⟩ => show win1_0.index t (1 : Fin 3) * 128 + 1 * (j 1).val = win1_5.index t (1 : Fin 3) * 128 + 1 * (j 1).val; omega
    | ⟨2, _⟩ => show win1_0.index t (2 : Fin 3) * 16 + 1 * (j 2).val = win1_5.index t (2 : Fin 3) * 16 + 1 * (j 2).val; omega)
  have E1 : ((cfg1.win 1).blk t).view.emb j = ix3 (⟨((((cfg1.win 5).blk t).view.emb j) 0).val, ((((cfg1.win 5).blk t).view.emb j) 0).isLt⟩ : Fin 256) (⟨((((cfg1.win 5).blk t).view.emb j) 1).val, ((((cfg1.win 5).blk t).view.emb j) 1).isLt⟩ : Fin 5120) (⟨((((cfg1.win 5).blk t).view.emb j) 2).val, ((((cfg1.win 5).blk t).view.emb j) 2).isLt⟩ : Fin 16) := funext fun a => Fin.ext (by
    match a with
    | ⟨0, _⟩ => show win1_1.index t (0 : Fin 3) * 32 + 1 * (j 0).val = win1_5.index t (0 : Fin 3) * 32 + 1 * (j 0).val; omega
    | ⟨1, _⟩ => show win1_1.index t (1 : Fin 3) * 128 + 1 * (j 1).val = win1_5.index t (1 : Fin 3) * 128 + 1 * (j 1).val; omega
    | ⟨2, _⟩ => show win1_1.index t (2 : Fin 3) * 16 + 1 * (j 2).val = win1_5.index t (2 : Fin 3) * 16 + 1 * (j 2).val; omega)
  have E2 : ((cfg1.win 2).blk t).view.emb (ix2 (⟨(j 0).val, (j 0).isLt⟩ : Fin 32) (⟨(j 1).val, (j 1).isLt⟩ : Fin 128)) = ix2 (⟨((((cfg1.win 5).blk t).view.emb j) 0).val, ((((cfg1.win 5).blk t).view.emb j) 0).isLt⟩ : Fin 256) (⟨((((cfg1.win 5).blk t).view.emb j) 1).val, ((((cfg1.win 5).blk t).view.emb j) 1).isLt⟩ : Fin 5120) := funext fun a => Fin.ext (by
    match a with
    | ⟨0, _⟩ => show win1_2.index t (0 : Fin 2) * 32 + 1 * (j 0).val = win1_5.index t (0 : Fin 3) * 32 + 1 * (j 0).val; omega
    | ⟨1, _⟩ => show win1_2.index t (1 : Fin 2) * 128 + 1 * (j 1).val = win1_5.index t (1 : Fin 3) * 128 + 1 * (j 1).val; omega)
  have E3 : ((cfg1.win 3).blk t).view.emb (ix2 (⟨(j 0).val, (j 0).isLt⟩ : Fin 32) (⟨(j 1).val, (j 1).isLt⟩ : Fin 128)) = ix2 (⟨((((cfg1.win 5).blk t).view.emb j) 0).val, ((((cfg1.win 5).blk t).view.emb j) 0).isLt⟩ : Fin 256) (⟨((((cfg1.win 5).blk t).view.emb j) 1).val, ((((cfg1.win 5).blk t).view.emb j) 1).isLt⟩ : Fin 5120) := funext fun a => Fin.ext (by
    match a with
    | ⟨0, _⟩ => show win1_3.index t (0 : Fin 2) * 32 + 1 * (j 0).val = win1_5.index t (0 : Fin 3) * 32 + 1 * (j 0).val; omega
    | ⟨1, _⟩ => show win1_3.index t (1 : Fin 2) * 128 + 1 * (j 1).val = win1_5.index t (1 : Fin 3) * 128 + 1 * (j 1).val; omega)
  have E4 : ((cfg1.win 4).blk t).view.emb (ix2 (⟨(j 0).val, (j 0).isLt⟩ : Fin 32) (⟨(j 2).val, (j 2).isLt⟩ : Fin 16)) = ix2 (⟨((((cfg1.win 5).blk t).view.emb j) 0).val, ((((cfg1.win 5).blk t).view.emb j) 0).isLt⟩ : Fin 256) (⟨((((cfg1.win 5).blk t).view.emb j) 2).val, ((((cfg1.win 5).blk t).view.emb j) 2).isLt⟩ : Fin 16) := funext fun a => Fin.ext (by
    match a with
    | ⟨0, _⟩ => show win1_4.index t (0 : Fin 2) * 32 + 1 * (j 0).val = win1_5.index t (0 : Fin 3) * 32 + 1 * (j 0).val; omega
    | ⟨1, _⟩ => show win1_4.index t (1 : Fin 2) * 16 + 1 * (j 2).val = win1_5.index t (2 : Fin 3) * 16 + 1 * (j 2).val; omega)
  refine (pay1_idx (iblk1 (F := Ideal) V c 0 t) (iblk1 (F := Ideal) V c 1 t) (iblk1 (F := Ideal) V c 2 t) (iblk1 (F := Ideal) V c 3 t) (iblk1 (F := Ideal) V c 4 t) j).trans ?_
  exact congrArg₂ (fun x y : EReal => x + y)
    (congrArg₂ (fun x y : EReal => x * y) (congrArg (V c main_arg5) E0) (congrArg (V c main_arg6) E1))
    (congrArg₂ (fun x y : EReal => x * y)
      (congrArg₂ (fun x y : EReal => x * y) (congrArg (V c main_v1_0) E3) (congrArg (V c main_v1_1) E4))
      (congrArg (V c main_arg0) E2))

/-- An index is in point t's tile iff each coordinate is in the tile's range on its axis. -/
theorem mem_blk (t : Fin cfg1.N) (i : S256x5120x16.Idx) :
    i ∈ ((cfg1.win 5).blk t).view.set ↔ ∀ a : Fin 3, win1_5.index t a * S32x128x16.size a ≤ (i a).val ∧ (i a).val < win1_5.index t a * S32x128x16.size a + S32x128x16.size a := by
  show i ∈ ((View.whole main_v2).slice (win1_5.rect t)).set ↔ _
  rw [View.set_slice_whole, Rect.mem_set_unit]
  exact Iff.rfl

/-- The tiles cover the array: row a, channel b lie in the tile of point 40·(a/32) + b/128. -/
theorem cover (i : S256x5120x16.Idx) : ∃ t : Fin cfg1.N, (cfg1.win 5).flush t = true ∧ i ∈ ((cfg1.win 5).blk t).view.set := by
  have hi0 : (i 0).val < 256 := (i 0).isLt
  have hi1 : (i 1).val < 5120 := (i 1).isLt
  have hi2 : (i 2).val < 16 := (i 2).isLt
  have hN : grid1.N = 320 := N_1
  have hlt : (i 0).val / 32 * 40 + (i 1).val / 128 < cfg1.N := by show _ < grid1.N; omega
  obtain ⟨o0, o1, o2, -⟩ := idx_tile ⟨(i 0).val / 32 * 40 + (i 1).val / 128, hlt⟩
  have p0 : win1_5.index ⟨(i 0).val / 32 * 40 + (i 1).val / 128, hlt⟩ (0 : Fin 3) = ((i 0).val / 32 * 40 + (i 1).val / 128) / 40 := o0
  have p1 : win1_5.index ⟨(i 0).val / 32 * 40 + (i 1).val / 128, hlt⟩ (1 : Fin 3) = ((i 0).val / 32 * 40 + (i 1).val / 128) % 40 := o1
  refine ⟨⟨(i 0).val / 32 * 40 + (i 1).val / 128, hlt⟩, flush1_5 _, ?_⟩
  rw [mem_blk]
  intro a
  match a with
  | ⟨0, _⟩ => show win1_5.index ⟨(i 0).val / 32 * 40 + (i 1).val / 128, hlt⟩ (0 : Fin 3) * 32 ≤ (i 0).val ∧ (i 0).val < win1_5.index ⟨(i 0).val / 32 * 40 + (i 1).val / 128, hlt⟩ (0 : Fin 3) * 32 + 32; omega
  | ⟨1, _⟩ => show win1_5.index ⟨(i 0).val / 32 * 40 + (i 1).val / 128, hlt⟩ (1 : Fin 3) * 128 ≤ (i 1).val ∧ (i 1).val < win1_5.index ⟨(i 0).val / 32 * 40 + (i 1).val / 128, hlt⟩ (1 : Fin 3) * 128 + 128; omega
  | ⟨2, _⟩ => show win1_5.index ⟨(i 0).val / 32 * 40 + (i 1).val / 128, hlt⟩ (2 : Fin 3) * 16 ≤ (i 2).val ∧ (i 2).val < win1_5.index ⟨(i 0).val / 32 * 40 + (i 1).val / 128, hlt⟩ (2 : Fin 3) * 16 + 16; omega

/-- The output array after the region: the state update of the arrays as the region finds them. -/
theorem final (c : Dev nD) : (dat1 (F := Ideal) V c).arrAt 5 cfg1.N
    = combineArr (V c main_arg5) (V c main_arg6) (V c main_arg0) (V c main_v1_0) (V c main_v1_1) :=
  (dat1 (F := Ideal) V c).arrAt_eq_of_cover 5 _ (fun t _ => flushed_eq V c t) cover

end Cert.KernelIdeal.CombineValue

end
-- ==== Proof.RunValue.lean ====
/-
  The kernel program's run with its result named, and the result read back to the launch arrays.

  @main is a reshape of the bias to one row, then the two pallas_calls. The run below is the launch over the program's
  three segments with the final state read at EVERY unscoped buffer, so the result buffer ends at the second region's
  output array after its write-backs, and the arguments end as launched.
  Reading back: the second region's output is `combineArr` of the arrays it finds (CombineValue); it finds abar, h and x
  as launched (no operation writes them), and finds the first region's two outputs, which are `stepArr` and `inProjArr`
  of what THAT region finds (ProjValue): x, W1, W2, Wb as launched and the bias as the one-row reshape of b, whose entry
  (0, d) is b(d). Together: the result buffer ends at `newState` of the seven launch arrays.
-/
import proofs.«137971_j39582418600449_2_alg».proof.Proof.Gen.KernelIdeal.Frame
import proofs.«137971_j39582418600449_2_alg».proof.Proof.ProjValue
import proofs.«137971_j39582418600449_2_alg».proof.Proof.CombineValue
import Idealize.ShloMosaic.Lib.StableHlo.Run
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Scan

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    segment boundary gives it and every argument as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-! ## Input arrays pass through a region unchanged -/

/-- The first region leaves each of its input arrays as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The second region leaves each of its input arrays as it found it. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-! ## What the second region finds -/

theorem V2_arg5 (c : Dev nD) : V2 m ρ c main_arg5 = m ((c : Thread nD τ).loc main_arg5) :=
  (W3_in m ρ c 0 rfl).symm.trans (W3_main_arg5 m ρ c)
theorem V2_arg6 (c : Dev nD) : V2 m ρ c main_arg6 = m ((c : Thread nD τ).loc main_arg6) :=
  (W3_in m ρ c 1 rfl).symm.trans (W3_main_arg6 m ρ c)
theorem V2_arg0 (c : Dev nD) : V2 m ρ c main_arg0 = m ((c : Thread nD τ).loc main_arg0) :=
  (W3_in m ρ c 2 rfl).symm.trans (W3_main_arg0 m ρ c)

/-! ## What the first region finds -/

theorem V1_arg0 (c : Dev nD) : V1 m ρ c main_arg0 = m ((c : Thread nD τ).loc main_arg0) :=
  (W2_in m ρ c 0 rfl).symm.trans (V2_arg0 m ρ c)
theorem V1_arg1 (c : Dev nD) : V1 m ρ c main_arg1 = m ((c : Thread nD τ).loc main_arg1) :=
  (W2_in m ρ c 1 rfl).symm.trans ((W3_of_ne m ρ c main_arg1 (by decide)).symm.trans (W3_main_arg1 m ρ c))
theorem V1_arg2 (c : Dev nD) : V1 m ρ c main_arg2 = m ((c : Thread nD τ).loc main_arg2) :=
  (W2_in m ρ c 2 rfl).symm.trans ((W3_of_ne m ρ c main_arg2 (by decide)).symm.trans (W3_main_arg2 m ρ c))
theorem V1_arg4 (c : Dev nD) : V1 m ρ c main_arg4 = m ((c : Thread nD τ).loc main_arg4) :=
  (W2_in m ρ c 4 rfl).symm.trans ((W3_of_ne m ρ c main_arg4 (by decide)).symm.trans (W3_main_arg4 m ρ c))

/-- The bias as the first region finds it: the one-row reshape of b. -/
theorem V1_bias (c : Dev nD) :
    (V1 m ρ c main_v0 : S1x5120.Idx → Elt F .f32) = shapeCast S1x5120 (m ((c : Thread nD τ).loc main_arg3)) shapeCasts_S5120_S1x5120 := by
  show StableHlo.after hostOps0 (W0 m ρ c) (Proc.devRef .tc main_v0) = _
  after_results
  rfl

end Run

/-! ## The result, read back -/

section Ideal
variable (m : (ℓ : Loc nD τ sig) → Buf (Elt Ideal) ℓ) (ρ : Dev nD → PrngReg)

/-- The one-row bias at (0, d) is b(d). -/
theorem bias_row (c : Dev nD) (d : Fin 5120) :
    V1 m ρ c main_v0 (ix2 (0 : Fin 1) d) = m ((c : Thread nD τ).loc main_arg3) (ix1 d) := by
  rw [V1_bias]
  exact shapeCast_a_1a_apply _ _ (0 : Fin 1) d

/-- The result buffer's final contents are the scan step of the launch arrays. -/
theorem result_eq (c : Dev nD) :
    W3 m ρ c (Proc.devRef .tc main_v2)
      = newState (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have hdt : V2 m ρ c main_v1_0 = stepArr (m ((c : Thread nD τ).loc main_arg0)) (m ((c : Thread nD τ).loc main_arg1))
      (m ((c : Thread nD τ).loc main_arg2)) (fun d => m ((c : Thread nD τ).loc main_arg3) (ix1 d)) := by
    refine ((W2_arr m ρ c 5).trans (ProjValue.final5 (V1 m ρ) c)).trans ?_
    rw [V1_arg0, V1_arg1, V1_arg2]
    exact congrArg (stepArr _ _ _) (funext fun d => bias_row m ρ c d)
  have hB : V2 m ρ c main_v1_1 = inProjArr (m ((c : Thread nD τ).loc main_arg0)) (m ((c : Thread nD τ).loc main_arg4)) := by
    refine ((W2_arr m ρ c 6).trans (ProjValue.final6 (V1 m ρ) c)).trans ?_
    rw [V1_arg0, V1_arg4]
  refine ((W3_arr m ρ c 5).trans (CombineValue.final (V2 m ρ) c)).trans ?_
  rw [V2_arg5, V2_arg6, V2_arg0, hdt, hB]
  rfl

/-- The kernel program's run at the ideal instance: the result at `newState` of the launch arrays, the arguments unchanged. -/
theorem run : θ_run defs (onTc (τ := τ) (main (F := Ideal))) ⟨m, fun _ => 0, ρ⟩ (fun r => ∀ c : Dev nD,
      r.2.mem ((c.tc : Thread nD τ).loc main_v2)
        = newState (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_result m ρ)

end Ideal

end Cert.KernelIdeal.RunValue

end
-- ==== Proof.lean ====
/-
  A single selective-scan (state-space) step: the Pallas kernel pair against its jnp reference, over the extended reals.

  Both programs take x[256,5120], W1[5120,160], W2[160,5120], b[5120], Wb[5120,16], abar[256,5120,16], h[256,5120,16] and
  return h'(u,d,n) = abar(u,d,n)·h(u,d,n) + (dt(u,d)·B(u,n))·x(u,d), with dt = softplus((x·W1)·W2 + b) and B = x·Wb
  (Proof/Spec.lean, `newState`).

  The kernel program computes dt and B in one un-tiled pallas_call — its operands rounded to bf16 on the way into each matrix
  product, which is the identity on the extended reals, each product accumulated into zero, which is the plain sum over the
  contracted axis — and the update in a second call tiled 32×128×16 over an 8×40 grid (Proof/Payload.lean: each store at an
  index; Proof/ProjValue.lean, Proof/CombineValue.lean: each output array after its call; Proof/RunValue.lean: the run and
  the result read back to the launch arrays). The reference does the same on the host (Proof/RefValue.lean). The two sides
  group and order every sum and product alike, so no algebraic law is needed and the inputs' finiteness is never used;
  the only differences are two spellings inside softplus (an "ordered" versus "unordered" not-equal test of a number with
  itself, and `0 - a` versus `-a`), which agree on every extended real.

  The idealization rewrote nothing, so the kernel's idealized program is its own text and `preserves` is trivial.
-/
import proofs.«137971_j39582418600449_2_alg».proof.Defs
import proofs.«137971_j39582418600449_2_alg».proof.Proof.Gen.Kernel
import proofs.«137971_j39582418600449_2_alg».proof.Proof.Gen.Kernel.Skeleton
import proofs.«137971_j39582418600449_2_alg».proof.Proof.Gen.Kernel.Launch
import proofs.«137971_j39582418600449_2_alg».proof.Proof.Gen.Kernel.Points
import proofs.«137971_j39582418600449_2_alg».proof.Proof.Gen.Kernel.Frame
import proofs.«137971_j39582418600449_2_alg».proof.Proof.Gen.KernelIdeal
import proofs.«137971_j39582418600449_2_alg».proof.Proof.Gen.KernelIdeal.Skeleton
import proofs.«137971_j39582418600449_2_alg».proof.Proof.Gen.KernelIdeal.Launch
import proofs.«137971_j39582418600449_2_alg».proof.Proof.Gen.KernelIdeal.Points
import proofs.«137971_j39582418600449_2_alg».proof.Proof.Gen.KernelIdeal.Frame
import proofs.«137971_j39582418600449_2_alg».proof.Proof.Gen.ReferenceIdeal
import proofs.«137971_j39582418600449_2_alg».proof.Proof.Gen.ReferenceIdeal.Run
import proofs.«137971_j39582418600449_2_alg».proof.Proof.Gen.ReferenceIdeal.Read
import proofs.«137971_j39582418600449_2_alg».proof.Proof.Gen.Pre_finite_inputs
import proofs.«137971_j39582418600449_2_alg».proof.Proof.RefValue
import proofs.«137971_j39582418600449_2_alg».proof.Proof.RunValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the result array at `newState` of those
    arguments: the kernel program by its run read back through its two calls, the reference by its run read one operation
    at a time. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact (Cert.ReferenceIdeal.Read.val_main_v16_eq _ _ _ _ _ _ _).trans
    (Cert.ReferenceIdeal.RefValue.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
